-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x1024 : Shape := ⟨2, ![512, 1024]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x1024 .f32) (main_arg8 : FVec F S512 .f32) (main_arg9 : FVec F S512x1024 .f32) (main_arg10 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S16384x512 .f32) (main_arg2 : FVec F S16384x512 .f32) (main_arg3 : FVec F S512x1024 .f32) (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S512x1024 : Shape := ⟨2, ![512, 1024]⟩
abbrev S512 : Shape := ⟨1, ![512]⟩
abbrev S2048x1024 : Shape := ⟨2, ![2048, 1024]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩

abbrev nBuf : Space → Nat
  | .hbm => 17
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S2048x1024, .f32⟩
  | .hbm, ⟨12, _⟩ => ⟨S2048x1024, .bf16⟩
  | .hbm, ⟨13, _⟩ => ⟨S2048, .f32⟩
  | .hbm, ⟨14, _⟩ => ⟨S1x2048, .f32⟩
  | .hbm, ⟨15, _⟩ => ⟨S16384x512, .f32⟩
  | .hbm, ⟨16, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S2048x1024, .bf16⟩
  | .local _ .vmem, ⟨7, _⟩ => ⟨S1x2048, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S512x1024_S512x1024_S512x1024_S512x1024_S2048x1024_d0 : Shape.Concatenates [S512x1024, S512x1024, S512x1024, S512x1024] S2048x1024 0
  bitsLt_bf16_f32 : FTy.bits .bf16 < FTy.bits .f32
  concatenates_S512_S512_S512_S512_S2048_d0 : Shape.Concatenates [S512, S512, S512, S512] S2048 0
  shapeCasts_S2048_S1x2048 : S2048.ShapeCasts S1x2048
  inb_S512x512_S512x512_0_0 : ∀ a, (![0, 0] : Fin 2 → Nat) a + S512x512.size a ≤ S512x512.size a
  h_S512x512 : 0 < S512x512.numel
  concatenates_S512x512_S512x512_S512x1024_d1 : Shape.Concatenates [S512x512, S512x512] S512x1024 1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x512.size a
  hwx0_5 : ∀ i : grid0.Coords, EltTy.bits .f32 = 32 ∨ (Rect.block (s := S16384x512) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x1024 : Shape := ⟨2, ![512, 1024]⟩
abbrev S512 : Shape := ⟨1, ![512]⟩
abbrev S16384x1024 : Shape := ⟨2, ![16384, 1024]⟩
abbrev S1024x512 : Shape := ⟨2, ![1024, 512]⟩
abbrev S1x512 : Shape := ⟨2, ![1, 512]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S16384x1024, .f32⟩
  | .hbm, ⟨12, _⟩ => ⟨S1024x512, .f32⟩
  | .hbm, ⟨13, _⟩ => ⟨S16384x512, .f32⟩
  | .hbm, ⟨14, _⟩ => ⟨S1x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S1024x512, .f32⟩
  | .hbm, ⟨19, _⟩ => ⟨S16384x512, .f32⟩
  | .hbm, ⟨20, _⟩ => ⟨S1x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S1024x512, .f32⟩
  | .hbm, ⟨32, _⟩ => ⟨S16384x512, .f32⟩
  | .hbm, ⟨33, _⟩ => ⟨S1x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S1024x512, .f32⟩
  | .hbm, ⟨45, _⟩ => ⟨S16384x512, .f32⟩
  | .hbm, ⟨46, _⟩ => ⟨S1x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S_, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  dot_S16384x1024_S1024x512_S16384x512_1_0_0_1_n_n_wf : DotDims.WF S16384x1024 S1024x512 S16384x512 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.KernelCell.lean ====
/-
  The frame of the LSTM cell program `Kernel`, at any float instance `F`.

  @main first stacks the four gate weight matrices [512,1024] one over the other into a [2048,1024] array, narrows
  it, stacks the four bias vectors [512] into one vector [2048] and sets it as a row [1,2048]; then one region of
  32 grid points runs the cell body on a block of 512 batch rows of x, h and c, with the stacked weights and the
  bias row resident. None of these four host operations writes an argument array, so the region finds every
  argument as launched; the body loads its five input blocks, and stores two blocks that cover its two output
  buffers whole. Hence: every weakly fair execution terminates without a fault, the arguments end unchanged, and
  each output array is, block by block, what the body stored at the point that owns the block.
-/
import proofs.«137856_j24953759990253_1_alg».proof.Proof.Gen.Kernel.Launch
import proofs.«137856_j24953759990253_1_alg».proof.Proof.Gen.Kernel.Skeleton
import proofs.«137856_j24953759990253_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the two stackings, the narrowing and
    the reshape. -/
abbrev V (c : Dev nD) (b : Ref sig .tc) : Buf (Elt F) ((c : Thread nD τ).loc b) :=
  StableHlo.after hostOps0 (fun b => m (c, b)) b

/-- None of the four host operations allocates. -/
theorem hostOps0_fresh : (hostOps0 : List (HloOp τ sig (Elt F))).Forall fun op => op.fresh = ∅ := by
  simp only [List.Forall]; repeat' constructor

/-- @main is the four host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the four host operations writes (they write the stacked weights, their narrowing, the
    stacked bias and its row form) is found by the region as launched. -/
theorem V_kept (c : Dev nD) (b : Ref sig .tc)
    (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨StableHlo.devRef_ne_of_ne h0, StableHlo.devRef_ne_of_ne h1, StableHlo.devRef_ne_of_ne h2,
      StableHlo.devRef_ne_of_ne h3⟩))

theorem V_main_arg0 (c : Dev nD) : V m c main_arg0 = m ((c : Thread nD τ).loc main_arg0) :=
  V_kept m c main_arg0 (by decide) (by decide) (by decide) (by decide)
theorem V_main_arg1 (c : Dev nD) : V m c main_arg1 = m ((c : Thread nD τ).loc main_arg1) :=
  V_kept m c main_arg1 (by decide) (by decide) (by decide) (by decide)
theorem V_main_arg2 (c : Dev nD) : V m c main_arg2 = m ((c : Thread nD τ).loc main_arg2) :=
  V_kept m c main_arg2 (by decide) (by decide) (by decide) (by decide)
theorem V_main_arg3 (c : Dev nD) : V m c main_arg3 = m ((c : Thread nD τ).loc main_arg3) :=
  V_kept m c main_arg3 (by decide) (by decide) (by decide) (by decide)
theorem V_main_arg4 (c : Dev nD) : V m c main_arg4 = m ((c : Thread nD τ).loc main_arg4) :=
  V_kept m c main_arg4 (by decide) (by decide) (by decide) (by decide)
theorem V_main_arg5 (c : Dev nD) : V m c main_arg5 = m ((c : Thread nD τ).loc main_arg5) :=
  V_kept m c main_arg5 (by decide) (by decide) (by decide) (by decide)
theorem V_main_arg6 (c : Dev nD) : V m c main_arg6 = m ((c : Thread nD τ).loc main_arg6) :=
  V_kept m c main_arg6 (by decide) (by decide) (by decide) (by decide)
theorem V_main_arg7 (c : Dev nD) : V m c main_arg7 = m ((c : Thread nD τ).loc main_arg7) :=
  V_kept m c main_arg7 (by decide) (by decide) (by decide) (by decide)
theorem V_main_arg8 (c : Dev nD) : V m c main_arg8 = m ((c : Thread nD τ).loc main_arg8) :=
  V_kept m c main_arg8 (by decide) (by decide) (by decide) (by decide)
theorem V_main_arg9 (c : Dev nD) : V m c main_arg9 = m ((c : Thread nD τ).loc main_arg9) :=
  V_kept m c main_arg9 (by decide) (by decide) (by decide) (by decide)
theorem V_main_arg10 (c : Dev nD) : V m c main_arg10 = m ((c : Thread nD τ).loc main_arg10) :=
  V_kept m c main_arg10 (by decide) (by decide) (by decide) (by decide)

/-! ## The windows' blocks -/

/-- Window `w`'s block at grid point `t`, read off its array as the region finds it: for x, h and c the 512 batch
    rows the point owns, for the stacked weights and the bias row the whole array. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- Input window 0's current staging buffer holds the window's block at every point, whether or not the block was
    fetched there (an unfetched block's index has not moved), for any proof data over the region-entry arrays whose
    body leaves the block in place. -/
theorem before_in0 {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
/-- Input window 1's current staging buffer holds the window's block at every point, whether or not the block was
    fetched there (an unfetched block's index has not moved), for any proof data over the region-entry arrays whose
    body leaves the block in place. -/
theorem before_in1 {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
/-- Input window 2's current staging buffer holds the window's block at every point, whether or not the block was
    fetched there (an unfetched block's index has not moved), for any proof data over the region-entry arrays whose
    body leaves the block in place. -/
theorem before_in2 {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
/-- Input window 3's current staging buffer holds the window's block at every point, whether or not the block was
    fetched there (an unfetched block's index has not moved), for any proof data over the region-entry arrays whose
    body leaves the block in place. -/
theorem before_in3 {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
/-- Input window 4's current staging buffer holds the window's block at every point, whether or not the block was
    fetched there (an unfetched block's index has not moved), for any proof data over the region-entry arrays whose
    body leaves the block in place. -/
theorem before_in4 {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)

/-! ## The arguments end unchanged -/

/-- From a run whose final state has every array of the pipeline at what the proof data says and every other
    buffer as the region found it: x, h and c are staged inputs, never written back, and the eight weight and
    bias arguments are touched by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).1 2).trans (((dats 0 c).arrAt_in 2 rfl _).trans ((hA c 2).trans (V_main_arg2 m c))),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c),
     ((h c).2 main_arg7 (Pipeline.mem_restRefs_of main_arg7 (by decide) (by decide))).trans (V_main_arg7 m c),
     ((h c).2 main_arg8 (Pipeline.mem_restRefs_of main_arg8 (by decide) (by decide))).trans (V_main_arg8 m c),
     ((h c).2 main_arg9 (Pipeline.mem_restRefs_of main_arg9 (by decide) (by decide))).trans (V_main_arg9 m c),
     ((h c).2 main_arg10 (Pipeline.mem_restRefs_of main_arg10 (by decide) (by decide))).trans (V_main_arg10 m c)⟩) h

/-! ## What the body leaves in its two output buffers -/

/-- The whole of a [512,512] buffer, of the stacked weights' buffer and of the bias row's. -/
abbrev rBlock : Rect S512x512 := Rect.unit (s := S512x512) ![0, 0] S512x512.size inb_S512x512_S512x512_0_0
abbrev rWeights : Rect S2048x1024 := Rect.unit (s := S2048x1024) ![0, 0] S2048x1024.size inb_S2048x1024_S2048x1024_0_0
abbrev rBias : Rect S1x2048 := Rect.unit (s := S1x2048) ![0, 0] S1x2048.size inb_S1x2048_S1x2048_0_0

/-- The new hidden state's buffer after the body, from the blocks of x, h, c, the stacked weights and the bias
    row: its one store, tanh(f·c + i·g)·o. -/
def outH (x h cc : Vec F S512x512 .f32) (w : Vec F S2048x1024 .bf16) (b : Vec F S1x2048 .f32) : Vec F S512x512 .f32 :=
  View.canon [⟨rBlock, k0_pay3 (View.ld x rBlock) (View.ld h rBlock) (View.ld w rWeights) (View.ld b rBias) (View.ld cc rBlock)⟩]

/-- The new cell state's buffer after the body: its one store, tanh(f·c + i·g). -/
def outC (x h cc : Vec F S512x512 .f32) (w : Vec F S2048x1024 .bf16) (b : Vec F S1x2048 .f32) : Vec F S512x512 .f32 :=
  View.canon [⟨rBlock, k0_pay2 (View.ld x rBlock) (View.ld h rBlock) (View.ld w rWeights) (View.ld b rBias) (View.ld cc rBlock)⟩]

/-- One store through the whole-buffer rectangle covers the buffer. -/
theorem cover_block (p0 : Vec F S512x512 .f32) (y : S512x512.Idx) :
    ∃ pc ∈ ([⟨rBlock, p0⟩] : List (View.Piece (Elt F) S512x512 .f32)), y ∈ pc.1.set :=
  View.cover_of_tiled [⟨rBlock, p0⟩] S512x512.size (by rfl) y

/-! ## The body's triple -/

set_option maxHeartbeats 4000000 in
/-- The cell body on whole staging memrefs — the five inputs' at read contents, the two outputs' at anything — runs
    to its continuation with the inputs' as they were and the outputs' at `outH` and `outC` of the inputs'. -/
theorem sound_kernel (c : Dev nD) (E : Set ℕ) (i : grid0.Coords)
    (arg1 : Memref sig .tc .vmem S512x512 .f32) (harg1 : arg1.IsWhole)
    (arg2 : Memref sig .tc .vmem S512x512 .f32) (harg2 : arg2.IsWhole)
    (arg3 : Memref sig .tc .vmem S512x512 .f32) (harg3 : arg3.IsWhole)
    (arg4 : Memref sig .tc .vmem S2048x1024 .bf16) (harg4 : arg4.IsWhole)
    (arg5 : Memref sig .tc .vmem S1x2048 .f32) (harg5 : arg5.IsWhole)
    (arg6 : Memref sig .tc .vmem S512x512 .f32) (harg6 : arg6.IsWhole)
    (arg7 : Memref sig .tc .vmem S512x512 .f32) (harg7 : arg7.IsWhole)
    (x0 x1 x2 : Vec F S512x512 .f32) (x3 : Vec F S2048x1024 .bf16) (x4 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (outH x0 x1 x2 x3 x4)
            ∗ owns (c : Thread nD τ) arg7 fullShare (outC x0 x1 x2 x3 x4)) -∗ K ⟨⟩))
      ⊢ wp frame (wpE (defs₀ (F := F)) Variants.none c none) E
          (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_block _)
  iexists _; isplitr
  swap; · iexact H6
  ipureintro
  exact View.read_writes_eq_canon _ _ _ (cover_block _)

/-! ## The pipeline's proof data -/

/-- On core `c`: the arrays as the region finds them; after the body at point `t` each input's buffer still at its
    block, the two outputs' at `outH` and `outC` of the five input blocks; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t)
    | ⟨6, _⟩ => outC (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_outH (c : Dev nD) (t : Fin cfg0.N) :
    (dats m 0 c).after 5 t = outH (iblk m c 0 t) (iblk m c 1 t) (iblk m c 2 t) (iblk m c 3 t) (iblk m c 4 t) := by
  dsimp only [dats]
theorem after_outC (c : Dev nD) (t : Fin cfg0.N) :
    (dats m 0 c).after 6 t = outC (iblk m c 0 t) (iblk m c 1 t) (iblk m c 2 t) (iblk m c 3 t) (iblk m c 4 t) := by
  dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d

/-! ## The body obligation -/

/-- What the body is called with at point `t`, the seven windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; what the class
    keeps beside the windows passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after_in0, after_in1, after_in2, after_in3, after_in4, after_outH, after_outC]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the
    pipeline ends at what the proof data says and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Cell

end
-- ==== Proof.KernelIdealCell.lean ====
/-
  The frame of the LSTM cell program `KernelIdeal`, at any float instance `F`.

  @main first stacks the four gate weight matrices [512,1024] one over the other into a [2048,1024] array, narrows
  it, stacks the four bias vectors [512] into one vector [2048] and sets it as a row [1,2048]; then one region of
  32 grid points runs the cell body on a block of 512 batch rows of x, h and c, with the stacked weights and the
  bias row resident. None of these four host operations writes an argument array, so the region finds every
  argument as launched; the body loads its five input blocks, and stores two blocks that cover its two output
  buffers whole. Hence: every weakly fair execution terminates without a fault, the arguments end unchanged, and
  each output array is, block by block, what the body stored at the point that owns the block.
-/
import proofs.«137856_j24953759990253_1_alg».proof.Proof.Gen.KernelIdeal.Launch
import proofs.«137856_j24953759990253_1_alg».proof.Proof.Gen.KernelIdeal.Skeleton
import proofs.«137856_j24953759990253_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the two stackings, the narrowing and
    the reshape. -/
abbrev V (c : Dev nD) (b : Ref sig .tc) : Buf (Elt F) ((c : Thread nD τ).loc b) :=
  StableHlo.after hostOps0 (fun b => m (c, b)) b

/-- None of the four host operations allocates. -/
theorem hostOps0_fresh : (hostOps0 : List (HloOp τ sig (Elt F))).Forall fun op => op.fresh = ∅ := by
  simp only [List.Forall]; repeat' constructor

/-- @main is the four host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the four host operations writes (they write the stacked weights, their narrowing, the
    stacked bias and its row form) is found by the region as launched. -/
theorem V_kept (c : Dev nD) (b : Ref sig .tc)
    (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨StableHlo.devRef_ne_of_ne h0, StableHlo.devRef_ne_of_ne h1, StableHlo.devRef_ne_of_ne h2,
      StableHlo.devRef_ne_of_ne h3⟩))

theorem V_main_arg0 (c : Dev nD) : V m c main_arg0 = m ((c : Thread nD τ).loc main_arg0) :=
  V_kept m c main_arg0 (by decide) (by decide) (by decide) (by decide)
theorem V_main_arg1 (c : Dev nD) : V m c main_arg1 = m ((c : Thread nD τ).loc main_arg1) :=
  V_kept m c main_arg1 (by decide) (by decide) (by decide) (by decide)
theorem V_main_arg2 (c : Dev nD) : V m c main_arg2 = m ((c : Thread nD τ).loc main_arg2) :=
  V_kept m c main_arg2 (by decide) (by decide) (by decide) (by decide)
theorem V_main_arg3 (c : Dev nD) : V m c main_arg3 = m ((c : Thread nD τ).loc main_arg3) :=
  V_kept m c main_arg3 (by decide) (by decide) (by decide) (by decide)
theorem V_main_arg4 (c : Dev nD) : V m c main_arg4 = m ((c : Thread nD τ).loc main_arg4) :=
  V_kept m c main_arg4 (by decide) (by decide) (by decide) (by decide)
theorem V_main_arg5 (c : Dev nD) : V m c main_arg5 = m ((c : Thread nD τ).loc main_arg5) :=
  V_kept m c main_arg5 (by decide) (by decide) (by decide) (by decide)
theorem V_main_arg6 (c : Dev nD) : V m c main_arg6 = m ((c : Thread nD τ).loc main_arg6) :=
  V_kept m c main_arg6 (by decide) (by decide) (by decide) (by decide)
theorem V_main_arg7 (c : Dev nD) : V m c main_arg7 = m ((c : Thread nD τ).loc main_arg7) :=
  V_kept m c main_arg7 (by decide) (by decide) (by decide) (by decide)
theorem V_main_arg8 (c : Dev nD) : V m c main_arg8 = m ((c : Thread nD τ).loc main_arg8) :=
  V_kept m c main_arg8 (by decide) (by decide) (by decide) (by decide)
theorem V_main_arg9 (c : Dev nD) : V m c main_arg9 = m ((c : Thread nD τ).loc main_arg9) :=
  V_kept m c main_arg9 (by decide) (by decide) (by decide) (by decide)
theorem V_main_arg10 (c : Dev nD) : V m c main_arg10 = m ((c : Thread nD τ).loc main_arg10) :=
  V_kept m c main_arg10 (by decide) (by decide) (by decide) (by decide)

/-! ## The windows' blocks -/

/-- Window `w`'s block at grid point `t`, read off its array as the region finds it: for x, h and c the 512 batch
    rows the point owns, for the stacked weights and the bias row the whole array. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- Input window 0's current staging buffer holds the window's block at every point, whether or not the block was
    fetched there (an unfetched block's index has not moved), for any proof data over the region-entry arrays whose
    body leaves the block in place. -/
theorem before_in0 {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
/-- Input window 1's current staging buffer holds the window's block at every point, whether or not the block was
    fetched there (an unfetched block's index has not moved), for any proof data over the region-entry arrays whose
    body leaves the block in place. -/
theorem before_in1 {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
/-- Input window 2's current staging buffer holds the window's block at every point, whether or not the block was
    fetched there (an unfetched block's index has not moved), for any proof data over the region-entry arrays whose
    body leaves the block in place. -/
theorem before_in2 {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
/-- Input window 3's current staging buffer holds the window's block at every point, whether or not the block was
    fetched there (an unfetched block's index has not moved), for any proof data over the region-entry arrays whose
    body leaves the block in place. -/
theorem before_in3 {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
/-- Input window 4's current staging buffer holds the window's block at every point, whether or not the block was
    fetched there (an unfetched block's index has not moved), for any proof data over the region-entry arrays whose
    body leaves the block in place. -/
theorem before_in4 {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)

/-! ## The arguments end unchanged -/

/-- From a run whose final state has every array of the pipeline at what the proof data says and every other
    buffer as the region found it: x, h and c are staged inputs, never written back, and the eight weight and
    bias arguments are touched by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).1 2).trans (((dats 0 c).arrAt_in 2 rfl _).trans ((hA c 2).trans (V_main_arg2 m c))),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c),
     ((h c).2 main_arg7 (Pipeline.mem_restRefs_of main_arg7 (by decide) (by decide))).trans (V_main_arg7 m c),
     ((h c).2 main_arg8 (Pipeline.mem_restRefs_of main_arg8 (by decide) (by decide))).trans (V_main_arg8 m c),
     ((h c).2 main_arg9 (Pipeline.mem_restRefs_of main_arg9 (by decide) (by decide))).trans (V_main_arg9 m c),
     ((h c).2 main_arg10 (Pipeline.mem_restRefs_of main_arg10 (by decide) (by decide))).trans (V_main_arg10 m c)⟩) h

/-! ## What the body leaves in its two output buffers -/

/-- The whole of a [512,512] buffer, of the stacked weights' buffer and of the bias row's. -/
abbrev rBlock : Rect S512x512 := Rect.unit (s := S512x512) ![0, 0] S512x512.size inb_S512x512_S512x512_0_0
abbrev rWeights : Rect S2048x1024 := Rect.unit (s := S2048x1024) ![0, 0] S2048x1024.size inb_S2048x1024_S2048x1024_0_0
abbrev rBias : Rect S1x2048 := Rect.unit (s := S1x2048) ![0, 0] S1x2048.size inb_S1x2048_S1x2048_0_0

/-- The new hidden state's buffer after the body, from the blocks of x, h, c, the stacked weights and the bias
    row: its one store, tanh(f·c + i·g)·o. -/
def outH (x h cc : Vec F S512x512 .f32) (w : Vec F S2048x1024 .bf16) (b : Vec F S1x2048 .f32) : Vec F S512x512 .f32 :=
  View.canon [⟨rBlock, k0_pay3 (View.ld x rBlock) (View.ld h rBlock) (View.ld w rWeights) (View.ld b rBias) (View.ld cc rBlock)⟩]

/-- The new cell state's buffer after the body: its one store, tanh(f·c + i·g). -/
def outC (x h cc : Vec F S512x512 .f32) (w : Vec F S2048x1024 .bf16) (b : Vec F S1x2048 .f32) : Vec F S512x512 .f32 :=
  View.canon [⟨rBlock, k0_pay2 (View.ld x rBlock) (View.ld h rBlock) (View.ld w rWeights) (View.ld b rBias) (View.ld cc rBlock)⟩]

/-- One store through the whole-buffer rectangle covers the buffer. -/
theorem cover_block (p0 : Vec F S512x512 .f32) (y : S512x512.Idx) :
    ∃ pc ∈ ([⟨rBlock, p0⟩] : List (View.Piece (Elt F) S512x512 .f32)), y ∈ pc.1.set :=
  View.cover_of_tiled [⟨rBlock, p0⟩] S512x512.size (by rfl) y

/-! ## The body's triple -/

set_option maxHeartbeats 4000000 in
/-- The cell body on whole staging memrefs — the five inputs' at read contents, the two outputs' at anything — runs
    to its continuation with the inputs' as they were and the outputs' at `outH` and `outC` of the inputs'. -/
theorem sound_kernel (c : Dev nD) (E : Set ℕ) (i : grid0.Coords)
    (arg1 : Memref sig .tc .vmem S512x512 .f32) (harg1 : arg1.IsWhole)
    (arg2 : Memref sig .tc .vmem S512x512 .f32) (harg2 : arg2.IsWhole)
    (arg3 : Memref sig .tc .vmem S512x512 .f32) (harg3 : arg3.IsWhole)
    (arg4 : Memref sig .tc .vmem S2048x1024 .bf16) (harg4 : arg4.IsWhole)
    (arg5 : Memref sig .tc .vmem S1x2048 .f32) (harg5 : arg5.IsWhole)
    (arg6 : Memref sig .tc .vmem S512x512 .f32) (harg6 : arg6.IsWhole)
    (arg7 : Memref sig .tc .vmem S512x512 .f32) (harg7 : arg7.IsWhole)
    (x0 x1 x2 : Vec F S512x512 .f32) (x3 : Vec F S2048x1024 .bf16) (x4 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (outH x0 x1 x2 x3 x4)
            ∗ owns (c : Thread nD τ) arg7 fullShare (outC x0 x1 x2 x3 x4)) -∗ K ⟨⟩))
      ⊢ wp frame (wpE (defs₀ (F := F)) Variants.none c none) E
          (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_block _)
  iexists _; isplitr
  swap; · iexact H6
  ipureintro
  exact View.read_writes_eq_canon _ _ _ (cover_block _)

/-! ## The pipeline's proof data -/

/-- On core `c`: the arrays as the region finds them; after the body at point `t` each input's buffer still at its
    block, the two outputs' at `outH` and `outC` of the five input blocks; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outH (iblk m c 0 t) (iblk m c 1 t) (iblk m c 2 t) (iblk m c 3 t) (iblk m c 4 t)
    | ⟨6, _⟩ => outC (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_outH (c : Dev nD) (t : Fin cfg0.N) :
    (dats m 0 c).after 5 t = outH (iblk m c 0 t) (iblk m c 1 t) (iblk m c 2 t) (iblk m c 3 t) (iblk m c 4 t) := by
  dsimp only [dats]
theorem after_outC (c : Dev nD) (t : Fin cfg0.N) :
    (dats m 0 c).after 6 t = outC (iblk m c 0 t) (iblk m c 1 t) (iblk m c 2 t) (iblk m c 3 t) (iblk m c 4 t) := by
  dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d

/-! ## The body obligation -/

/-- What the body is called with at point `t`, the seven windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; what the class
    keeps beside the windows passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after_in0, after_in1, after_in2, after_in3, after_in4, after_outH, after_outC]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) :
    BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the
    pipeline ends at what the proof data says and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Cell

end
-- ==== Proof.LstmCell.lean ====
/-
  One step of an LSTM cell over the extended reals, entry by entry.

  For R batch rows: x and h are [R,512] arrays, joined side by side into rows of 1024 entries; each of the four
  gates has a weight matrix [512,1024] and a bias [512], and its pre-activation at row a, unit q is

      pre(a,q) = (sum over k < 1024 of [x|h](a,k) * W(q,k)) + b(q).

  With s the logistic function 1/(1 + e^(-z)):  new_c = tanh(s(pre_f)*c + s(pre_i)*tanh(pre_g)),  new_h = new_c*s(pre_o).
  Every entry of row a depends on row a of x, h and c only, so a block of rows computes the same entries as the
  whole batch.
-/
import Idealize.ShloMosaic.PureOps.Ideal
import Idealize.ShloMosaic.Lib.ValueIdx

noncomputable section

namespace Cert.LstmCell

open Idealize.ShloMosaic Idealize.ShloMosaic.ValueIdx

/-- An [R,512] array, a [512,1024] weight matrix, a [512] bias, of extended reals. -/
abbrev Rows (R : Nat) := (⟨2, ![R, 512]⟩ : Shape).Idx → EReal
abbrev Weights := (⟨2, ![512, 1024]⟩ : Shape).Idx → EReal
abbrev Bias := (⟨1, ![512]⟩ : Shape).Idx → EReal

/-- Entry (a,k) of x and h set side by side: x's for k < 512, h's at k - 512 from there on. -/
def joined {R : Nat} (X H : Rows R) (a : Fin R) (k : Fin 1024) : EReal :=
  if hk : k.val < 512 then X (ix2 a ⟨k.val, hk⟩) else H (ix2 a ⟨k.val - 512, by have := k.isLt; omega⟩)

/-- A gate's pre-activation at row a, unit q. -/
def pre {R : Nat} (X H : Rows R) (W : Weights) (b : Bias) (a : Fin R) (q : Fin 512) : EReal :=
  (∑ k : Fin 1024, joined X H a k * W (ix2 q k)) + b (ix1 q)

/-- The new cell state at row a, unit q. -/
def newC {R : Nat} (X H C : Rows R) (Wf : Weights) (bf : Bias) (Wi : Weights) (bi : Bias) (Wg : Weights) (bg : Bias)
    (a : Fin R) (q : Fin 512) : EReal :=
  Ideal.tanh (Ideal.logistic (pre X H Wf bf a q) * C (ix2 a q)
    + Ideal.logistic (pre X H Wi bi a q) * Ideal.tanh (pre X H Wg bg a q))

/-- The new hidden state at row a, unit q. -/
def newH {R : Nat} (X H C : Rows R) (Wf : Weights) (bf : Bias) (Wi : Weights) (bi : Bias) (Wg : Weights) (bg : Bias)
    (Wo : Weights) (bo : Bias) (a : Fin R) (q : Fin 512) : EReal :=
  newC X H C Wf bf Wi bi Wg bg a q * Ideal.logistic (pre X H Wo bo a q)

/-- The two results as whole arrays. -/
def newCArr {R : Nat} (X H C : Rows R) (Wf : Weights) (bf : Bias) (Wi : Weights) (bi : Bias) (Wg : Weights) (bg : Bias) :
    Rows R := fun i => newC X H C Wf bf Wi bi Wg bg (i 0) (i 1)
def newHArr {R : Nat} (X H C : Rows R) (Wf : Weights) (bf : Bias) (Wi : Weights) (bi : Bias) (Wg : Weights) (bg : Bias)
    (Wo : Weights) (bo : Bias) : Rows R := fun i => newH X H C Wf bf Wi bi Wg bg Wo bo (i 0) (i 1)

/-! ## A row's entries depend on that row only -/

section Rows
variable {R R' : Nat} {X H C : Rows R} {X' H' C' : Rows R'} {a : Fin R} {a' : Fin R'}

theorem joined_row (hX : ∀ n : Fin 512, X' (ix2 a' n) = X (ix2 a n)) (hH : ∀ n : Fin 512, H' (ix2 a' n) = H (ix2 a n))
    (k : Fin 1024) : joined X' H' a' k = joined X H a k := by
  unfold joined
  by_cases hk : k.val < 512
  · rw [dif_pos hk, dif_pos hk, hX]
  · rw [dif_neg hk, dif_neg hk, hH]

theorem pre_row (hX : ∀ n : Fin 512, X' (ix2 a' n) = X (ix2 a n)) (hH : ∀ n : Fin 512, H' (ix2 a' n) = H (ix2 a n))
    (W : Weights) (b : Bias) (q : Fin 512) : pre X' H' W b a' q = pre X H W b a q := by
  unfold pre
  simp only [joined_row hX hH]

theorem newC_row (hX : ∀ n : Fin 512, X' (ix2 a' n) = X (ix2 a n)) (hH : ∀ n : Fin 512, H' (ix2 a' n) = H (ix2 a n))
    (hC : ∀ n : Fin 512, C' (ix2 a' n) = C (ix2 a n))
    (Wf : Weights) (bf : Bias) (Wi : Weights) (bi : Bias) (Wg : Weights) (bg : Bias) (q : Fin 512) :
    newC X' H' C' Wf bf Wi bi Wg bg a' q = newC X H C Wf bf Wi bi Wg bg a q := by
  unfold newC
  rw [pre_row hX hH, pre_row hX hH, pre_row hX hH, hC]

theorem newH_row (hX : ∀ n : Fin 512, X' (ix2 a' n) = X (ix2 a n)) (hH : ∀ n : Fin 512, H' (ix2 a' n) = H (ix2 a n))
    (hC : ∀ n : Fin 512, C' (ix2 a' n) = C (ix2 a n))
    (Wf : Weights) (bf : Bias) (Wi : Weights) (bi : Bias) (Wg : Weights) (bg : Bias) (Wo : Weights) (bo : Bias) (q : Fin 512) :
    newH X' H' C' Wf bf Wi bi Wg bg Wo bo a' q = newH X H C Wf bf Wi bi Wg bg Wo bo a q := by
  unfold newH
  rw [newC_row hX hH hC, pre_row hX hH]

end Rows

/-! ## The logistic function as the quotient the host spells, and the float word of 1 -/

/-- The f32 word 0x3F800000 is the number 1. -/
theorem one_word : Ideal.ofBits .f32 0x3F800000#32 = 1 := by
  simp [Ideal.ofBits, Ideal.ieee, -EReal.coe_mul]; norm_num

/-- 1 / (1 + e^(-z)), written with the host's quotient, negation and exponential, is the logistic function on
    every extended real. -/
theorem logistic_quotient (z : Ideal .f32) :
    FloatOps.hostDivf (1 : Ideal .f32) (FloatOps.addf 1 (FloatOps.hostUnary .exp (FloatOps.hostNegf z))) = Ideal.logistic z := rfl

end Cert.LstmCell

end
-- ==== Proof.LibGrid.lean ====
/-
  Two-dimensional arrays glued from pieces, read at explicit coordinates, over any element type and any extents:
  pieces side by side (joined along the columns) and pieces one over the other (joined along the rows) — the entry at
  (a, j) is the entry of the piece whose span holds the joined coordinate, at that coordinate less the extents of the
  pieces before it — and a 3 x 3 grid of [r, c] pieces (three rows of three pieces side by side, one over the other)
  read at (r * b + k, c * b' + n) as piece (b, b') at (k, n).
-/
import Idealize.ShloMosaic.Lib.Pipeline.Value
import Idealize.ShloMosaic.Lib.ValueIdx

noncomputable section

namespace Cert.LibGrid

open Idealize.ShloMosaic Idealize.ShloMosaic.ValueIdx Idealize.ShloMosaic.Pipeline

variable {α : Type}

/-- Pieces side by side: the entry at (a, j) with `j = pre + n`, `pre` the total width of the pieces before piece `k`
    and `n` a column of piece `k`, is piece `k`'s entry at (a, n). -/
theorem cols_apply {r C : Nat} (xs : List ((s : Shape) × (s.Idx → α)))
    (h : Shape.Concatenates (xs.map (·.1)) ⟨2, ![r, C]⟩ 1) (a : Fin r) (j : Fin C)
    (k : Nat) (hk : k < xs.length) (c : Nat) (x₁ : (⟨2, ![r, c]⟩ : Shape).Idx → α) (hxk : xs[k] = ⟨⟨2, ![r, c]⟩, x₁⟩)
    (pre : Nat)
    (hpre : (((xs.take k).map (·.1)).map fun s : Shape =>
      if h : s.rank = (⟨2, ![r, C]⟩ : Shape).rank then s.size ((1 : Fin (⟨2, ![r, C]⟩ : Shape).rank).cast h.symm) else 0).sum = pre)
    (n : Fin c) (hj : pre + n.val = j.val) :
    concatenate ⟨2, ![r, C]⟩ 1 xs h (ix2 a j) = x₁ (ix2 a n) :=
  concatenate_apply_piece (t := ⟨2, ![r, C]⟩) 1 xs h (ix2 a j) k hk ⟨2, ![r, c]⟩ x₁ hxk rfl pre hpre (ix2 a n)
    (fun b hb => by
      match b with
      | ⟨0, _⟩ => rfl
      | ⟨1, _⟩ => exact absurd rfl hb)
    hj

/-- Pieces one over the other: the entry at (j, b) with `j = pre + k'`, `pre` the total height of the pieces before piece
    `k` and `k'` a row of piece `k`, is piece `k`'s entry at (k', b). -/
theorem rows_apply {R c : Nat} (xs : List ((s : Shape) × (s.Idx → α)))
    (h : Shape.Concatenates (xs.map (·.1)) ⟨2, ![R, c]⟩ 0) (j : Fin R) (b : Fin c)
    (k : Nat) (hk : k < xs.length) (r : Nat) (x₁ : (⟨2, ![r, c]⟩ : Shape).Idx → α) (hxk : xs[k] = ⟨⟨2, ![r, c]⟩, x₁⟩)
    (pre : Nat)
    (hpre : (((xs.take k).map (·.1)).map fun s : Shape =>
      if h : s.rank = (⟨2, ![R, c]⟩ : Shape).rank then s.size ((0 : Fin (⟨2, ![R, c]⟩ : Shape).rank).cast h.symm) else 0).sum = pre)
    (k' : Fin r) (hj : pre + k'.val = j.val) :
    concatenate ⟨2, ![R, c]⟩ 0 xs h (ix2 j b) = x₁ (ix2 k' b) :=
  concatenate_apply_piece (t := ⟨2, ![R, c]⟩) 0 xs h (ix2 j b) k hk ⟨2, ![r, c]⟩ x₁ hxk rfl pre hpre (ix2 k' b)
    (fun d hd => by
      match d with
      | ⟨0, _⟩ => exact absurd rfl hd
      | ⟨1, _⟩ => rfl)
    hj

/-- A 3 x 3 grid of [r, c] pieces — three rows, each three pieces side by side, one over the other — read at
    (r * b + k, c * b' + n): piece (b, b') at (k, n). -/
theorem grid3_apply {r c R C : Nat} (P : Fin 3 → Fin 3 → ((⟨2, ![r, c]⟩ : Shape).Idx → α))
    (h0 h1 h2 : Shape.Concatenates [(⟨2, ![r, c]⟩ : Shape), ⟨2, ![r, c]⟩, ⟨2, ![r, c]⟩] ⟨2, ![r, C]⟩ 1)
    (h : Shape.Concatenates [(⟨2, ![r, C]⟩ : Shape), ⟨2, ![r, C]⟩, ⟨2, ![r, C]⟩] ⟨2, ![R, C]⟩ 0)
    (b b' : Fin 3) (k : Fin r) (n : Fin c) (j : Fin R) (n' : Fin C)
    (hj : r * b.val + k.val = j.val) (hn : c * b'.val + n.val = n'.val) :
    concatenate ⟨2, ![R, C]⟩ 0
      [⟨⟨2, ![r, C]⟩, concatenate ⟨2, ![r, C]⟩ 1 [⟨⟨2, ![r, c]⟩, P 0 0⟩, ⟨⟨2, ![r, c]⟩, P 0 1⟩, ⟨⟨2, ![r, c]⟩, P 0 2⟩] h0⟩,
       ⟨⟨2, ![r, C]⟩, concatenate ⟨2, ![r, C]⟩ 1 [⟨⟨2, ![r, c]⟩, P 1 0⟩, ⟨⟨2, ![r, c]⟩, P 1 1⟩, ⟨⟨2, ![r, c]⟩, P 1 2⟩] h1⟩,
       ⟨⟨2, ![r, C]⟩, concatenate ⟨2, ![r, C]⟩ 1 [⟨⟨2, ![r, c]⟩, P 2 0⟩, ⟨⟨2, ![r, c]⟩, P 2 1⟩, ⟨⟨2, ![r, c]⟩, P 2 2⟩] h2⟩] h (ix2 j n')
    = P b b' (ix2 k n) := by
  have colsOf : ∀ (Q : Fin 3 → ((⟨2, ![r, c]⟩ : Shape).Idx → α)) (hh : Shape.Concatenates [(⟨2, ![r, c]⟩ : Shape), ⟨2, ![r, c]⟩, ⟨2, ![r, c]⟩] ⟨2, ![r, C]⟩ 1),
      concatenate ⟨2, ![r, C]⟩ 1 [⟨⟨2, ![r, c]⟩, Q 0⟩, ⟨⟨2, ![r, c]⟩, Q 1⟩, ⟨⟨2, ![r, c]⟩, Q 2⟩] hh (ix2 k n') = Q b' (ix2 k n) := by
    intro Q hh
    fin_cases b'
    · exact cols_apply [⟨⟨2, ![r, c]⟩, Q 0⟩, ⟨⟨2, ![r, c]⟩, Q 1⟩, ⟨⟨2, ![r, c]⟩, Q 2⟩] hh k n' 0 (by simp) c (Q 0) rfl 0 (by simp) n (by simpa using hn)
    · exact cols_apply [⟨⟨2, ![r, c]⟩, Q 0⟩, ⟨⟨2, ![r, c]⟩, Q 1⟩, ⟨⟨2, ![r, c]⟩, Q 2⟩] hh k n' 1 (by simp) c (Q 1) rfl c (by simp) n (by simpa using hn)
    · exact cols_apply [⟨⟨2, ![r, c]⟩, Q 0⟩, ⟨⟨2, ![r, c]⟩, Q 1⟩, ⟨⟨2, ![r, c]⟩, Q 2⟩] hh k n' 2 (by simp) c (Q 2) rfl (c + c) (by simp) n (by simp at hn; omega)
  fin_cases b
  · exact (rows_apply [⟨⟨2, ![r, C]⟩, concatenate ⟨2, ![r, C]⟩ 1 [⟨⟨2, ![r, c]⟩, P 0 0⟩, ⟨⟨2, ![r, c]⟩, P 0 1⟩, ⟨⟨2, ![r, c]⟩, P 0 2⟩] h0⟩,
       ⟨⟨2, ![r, C]⟩, concatenate ⟨2, ![r, C]⟩ 1 [⟨⟨2, ![r, c]⟩, P 1 0⟩, ⟨⟨2, ![r, c]⟩, P 1 1⟩, ⟨⟨2, ![r, c]⟩, P 1 2⟩] h1⟩,
       ⟨⟨2, ![r, C]⟩, concatenate ⟨2, ![r, C]⟩ 1 [⟨⟨2, ![r, c]⟩, P 2 0⟩, ⟨⟨2, ![r, c]⟩, P 2 1⟩, ⟨⟨2, ![r, c]⟩, P 2 2⟩] h2⟩]
      h j n' 0 (by simp) r _ rfl 0 (by simp) k (by simpa using hj)).trans (colsOf (P 0) h0)
  · exact (rows_apply [⟨⟨2, ![r, C]⟩, concatenate ⟨2, ![r, C]⟩ 1 [⟨⟨2, ![r, c]⟩, P 0 0⟩, ⟨⟨2, ![r, c]⟩, P 0 1⟩, ⟨⟨2, ![r, c]⟩, P 0 2⟩] h0⟩,
       ⟨⟨2, ![r, C]⟩, concatenate ⟨2, ![r, C]⟩ 1 [⟨⟨2, ![r, c]⟩, P 1 0⟩, ⟨⟨2, ![r, c]⟩, P 1 1⟩, ⟨⟨2, ![r, c]⟩, P 1 2⟩] h1⟩,
       ⟨⟨2, ![r, C]⟩, concatenate ⟨2, ![r, C]⟩ 1 [⟨⟨2, ![r, c]⟩, P 2 0⟩, ⟨⟨2, ![r, c]⟩, P 2 1⟩, ⟨⟨2, ![r, c]⟩, P 2 2⟩] h2⟩]
      h j n' 1 (by simp) r _ rfl r (by simp) k (by simpa using hj)).trans (colsOf (P 1) h1)
  · exact (rows_apply [⟨⟨2, ![r, C]⟩, concatenate ⟨2, ![r, C]⟩ 1 [⟨⟨2, ![r, c]⟩, P 0 0⟩, ⟨⟨2, ![r, c]⟩, P 0 1⟩, ⟨⟨2, ![r, c]⟩, P 0 2⟩] h0⟩,
       ⟨⟨2, ![r, C]⟩, concatenate ⟨2, ![r, C]⟩ 1 [⟨⟨2, ![r, c]⟩, P 1 0⟩, ⟨⟨2, ![r, c]⟩, P 1 1⟩, ⟨⟨2, ![r, c]⟩, P 1 2⟩] h1⟩,
       ⟨⟨2, ![r, C]⟩, concatenate ⟨2, ![r, C]⟩ 1 [⟨⟨2, ![r, c]⟩, P 2 0⟩, ⟨⟨2, ![r, c]⟩, P 2 1⟩, ⟨⟨2, ![r, c]⟩, P 2 2⟩] h2⟩]
      h j n' 2 (by simp) r _ rfl (r + r) (by simp) k (by simp at hj; omega)).trans (colsOf (P 2) h2)

end Cert.LibGrid

end
-- ==== Proof.LibVecStack.lean ====
/-
  Vectors set end to end, read at an index, over any element type and any lengths: the entry at position
  `pre + n`, with `pre` the total length of the pieces before piece `k` and `n` a position inside piece `k`, is
  piece `k`'s entry at `n`.
-/
import Idealize.ShloMosaic.Lib.Pipeline.Value
import Idealize.ShloMosaic.Lib.ValueIdx

noncomputable section

namespace Cert.LibVecStack

open Idealize.ShloMosaic Idealize.ShloMosaic.ValueIdx Idealize.ShloMosaic.Pipeline

variable {α : Type}

/-- One-dimensional pieces end to end: position `j = pre + n` reads piece `k` at `n`. -/
theorem vec_apply {N : Nat} (xs : List ((s : Shape) × (s.Idx → α)))
    (h : Shape.Concatenates (xs.map (·.1)) ⟨1, ![N]⟩ 0) (j : Fin N)
    (k : Nat) (hk : k < xs.length) (c : Nat) (x₁ : (⟨1, ![c]⟩ : Shape).Idx → α) (hxk : xs[k] = ⟨⟨1, ![c]⟩, x₁⟩)
    (pre : Nat)
    (hpre : (((xs.take k).map (·.1)).map fun s : Shape =>
      if h : s.rank = (⟨1, ![N]⟩ : Shape).rank then s.size ((0 : Fin (⟨1, ![N]⟩ : Shape).rank).cast h.symm) else 0).sum = pre)
    (n : Fin c) (hj : pre + n.val = j.val) :
    concatenate ⟨1, ![N]⟩ 0 xs h (ix1 j) = x₁ (ix1 n) :=
  concatenate_apply_piece (t := ⟨1, ![N]⟩) 0 xs h (ix1 j) k hk ⟨1, ![c]⟩ x₁ hxk rfl pre hpre (ix1 n)
    (fun b hb => by
      match b with
      | ⟨0, _⟩ => exact absurd rfl hb)
    hj

end Cert.LibVecStack

end
-- ==== Proof.CellLayout.lean ====
/-
  The three gluings of the LSTM cell read at an index, over any element type: x and h side by side (for any number
  of rows), the four gate weight matrices one over the other, and the four bias vectors end to end. Row 512*g + q
  of the stacked weights is row q of gate g's matrix, position 512*g + q of the stacked bias is gate g's entry q.
-/
import proofs.«137856_j24953759990253_1_alg».proof.Proof.LibGrid
import proofs.«137856_j24953759990253_1_alg».proof.Proof.LibVecStack

noncomputable section

namespace Cert.CellLayout

open Idealize.ShloMosaic Idealize.ShloMosaic.ValueIdx Idealize.ShloMosaic.Pipeline

variable {α : Type}

/-- x and h side by side at (a,k), k in x's half: x's entry. -/
theorem side_left {R : Nat} (X H : (⟨2, ![R, 512]⟩ : Shape).Idx → α)
    (h : Shape.Concatenates [(⟨2, ![R, 512]⟩ : Shape), ⟨2, ![R, 512]⟩] ⟨2, ![R, 1024]⟩ 1)
    (a : Fin R) (k : Fin 1024) (hk : k.val < 512) :
    concatenate ⟨2, ![R, 1024]⟩ 1 [⟨⟨2, ![R, 512]⟩, X⟩, ⟨⟨2, ![R, 512]⟩, H⟩] h (ix2 a k) = X (ix2 a ⟨k.val, hk⟩) :=
  Cert.LibGrid.cols_apply [⟨⟨2, ![R, 512]⟩, X⟩, ⟨⟨2, ![R, 512]⟩, H⟩] h a k 0 (by simp) 512 X rfl 0 (by simp) ⟨k.val, hk⟩ (by simp)

/-- x and h side by side at (a,k), k in h's half: h's entry at k - 512. -/
theorem side_right {R : Nat} (X H : (⟨2, ![R, 512]⟩ : Shape).Idx → α)
    (h : Shape.Concatenates [(⟨2, ![R, 512]⟩ : Shape), ⟨2, ![R, 512]⟩] ⟨2, ![R, 1024]⟩ 1)
    (a : Fin R) (k : Fin 1024) (hk : ¬ k.val < 512) :
    concatenate ⟨2, ![R, 1024]⟩ 1 [⟨⟨2, ![R, 512]⟩, X⟩, ⟨⟨2, ![R, 512]⟩, H⟩] h (ix2 a k)
      = H (ix2 a ⟨k.val - 512, by have := k.isLt; omega⟩) :=
  Cert.LibGrid.cols_apply [⟨⟨2, ![R, 512]⟩, X⟩, ⟨⟨2, ![R, 512]⟩, H⟩] h a k 1 (by simp) 512 H rfl 512 (by simp)
    ⟨k.val - 512, by have := k.isLt; omega⟩ (by simp; omega)

/-- The four weight matrices one over the other: row 512*g + q is row q of matrix g. -/
theorem stacked_rows (W : Fin 4 → ((⟨2, ![512, 1024]⟩ : Shape).Idx → α))
    (h : Shape.Concatenates [(⟨2, ![512, 1024]⟩ : Shape), ⟨2, ![512, 1024]⟩, ⟨2, ![512, 1024]⟩, ⟨2, ![512, 1024]⟩] ⟨2, ![2048, 1024]⟩ 0)
    (g : Fin 4) (q : Fin 512) (j : Fin 2048) (k : Fin 1024) (hj : 512 * g.val + q.val = j.val) :
    concatenate ⟨2, ![2048, 1024]⟩ 0 [⟨⟨2, ![512, 1024]⟩, W 0⟩, ⟨⟨2, ![512, 1024]⟩, W 1⟩, ⟨⟨2, ![512, 1024]⟩, W 2⟩, ⟨⟨2, ![512, 1024]⟩, W 3⟩] h (ix2 j k)
      = W g (ix2 q k) := by
  fin_cases g
  · exact Cert.LibGrid.rows_apply [⟨⟨2, ![512, 1024]⟩, W 0⟩, ⟨⟨2, ![512, 1024]⟩, W 1⟩, ⟨⟨2, ![512, 1024]⟩, W 2⟩, ⟨⟨2, ![512, 1024]⟩, W 3⟩] h j k 0 (by simp) 512 (W 0) rfl 0 (by simp) q (by simpa using hj)
  · exact Cert.LibGrid.rows_apply [⟨⟨2, ![512, 1024]⟩, W 0⟩, ⟨⟨2, ![512, 1024]⟩, W 1⟩, ⟨⟨2, ![512, 1024]⟩, W 2⟩, ⟨⟨2, ![512, 1024]⟩, W 3⟩] h j k 1 (by simp) 512 (W 1) rfl 512 (by simp) q (by simpa using hj)
  · exact Cert.LibGrid.rows_apply [⟨⟨2, ![512, 1024]⟩, W 0⟩, ⟨⟨2, ![512, 1024]⟩, W 1⟩, ⟨⟨2, ![512, 1024]⟩, W 2⟩, ⟨⟨2, ![512, 1024]⟩, W 3⟩] h j k 2 (by simp) 512 (W 2) rfl 1024 (by simp) q (by simp at hj; omega)
  · exact Cert.LibGrid.rows_apply [⟨⟨2, ![512, 1024]⟩, W 0⟩, ⟨⟨2, ![512, 1024]⟩, W 1⟩, ⟨⟨2, ![512, 1024]⟩, W 2⟩, ⟨⟨2, ![512, 1024]⟩, W 3⟩] h j k 3 (by simp) 512 (W 3) rfl 1536 (by simp) q (by simp at hj; omega)

/-- The four bias vectors end to end: position 512*g + q is entry q of vector g. -/
theorem stacked_bias (b : Fin 4 → ((⟨1, ![512]⟩ : Shape).Idx → α))
    (h : Shape.Concatenates [(⟨1, ![512]⟩ : Shape), ⟨1, ![512]⟩, ⟨1, ![512]⟩, ⟨1, ![512]⟩] ⟨1, ![2048]⟩ 0)
    (g : Fin 4) (q : Fin 512) (j : Fin 2048) (hj : 512 * g.val + q.val = j.val) :
    concatenate ⟨1, ![2048]⟩ 0 [⟨⟨1, ![512]⟩, b 0⟩, ⟨⟨1, ![512]⟩, b 1⟩, ⟨⟨1, ![512]⟩, b 2⟩, ⟨⟨1, ![512]⟩, b 3⟩] h (ix1 j)
      = b g (ix1 q) := by
  fin_cases g
  · exact Cert.LibVecStack.vec_apply [⟨⟨1, ![512]⟩, b 0⟩, ⟨⟨1, ![512]⟩, b 1⟩, ⟨⟨1, ![512]⟩, b 2⟩, ⟨⟨1, ![512]⟩, b 3⟩] h j 0 (by simp) 512 (b 0) rfl 0 (by simp) q (by simpa using hj)
  · exact Cert.LibVecStack.vec_apply [⟨⟨1, ![512]⟩, b 0⟩, ⟨⟨1, ![512]⟩, b 1⟩, ⟨⟨1, ![512]⟩, b 2⟩, ⟨⟨1, ![512]⟩, b 3⟩] h j 1 (by simp) 512 (b 1) rfl 512 (by simp) q (by simpa using hj)
  · exact Cert.LibVecStack.vec_apply [⟨⟨1, ![512]⟩, b 0⟩, ⟨⟨1, ![512]⟩, b 1⟩, ⟨⟨1, ![512]⟩, b 2⟩, ⟨⟨1, ![512]⟩, b 3⟩] h j 2 (by simp) 512 (b 2) rfl 1024 (by simp) q (by simp at hj; omega)
  · exact Cert.LibVecStack.vec_apply [⟨⟨1, ![512]⟩, b 0⟩, ⟨⟨1, ![512]⟩, b 1⟩, ⟨⟨1, ![512]⟩, b 2⟩, ⟨⟨1, ![512]⟩, b 3⟩] h j 3 (by simp) 512 (b 3) rfl 1536 (by simp) q (by simp at hj; omega)

end Cert.CellLayout

end
-- ==== Proof.CellBody.lean ====
/-
  The LSTM cell body's stored values read at an index, at the ideal instance, for one block of 512 batch rows.

  The body joins the x and h blocks side by side, multiplies the [512,1024] result by the stacked weights [2048,1024]
  contracted over both last axes (entry (p,j) is the sum over k of [x|h](p,k) * w(j,k)), adds the bias row, and cuts
  the [512,2048] result into four [512,512] column bands: band g holds gate g's pre-activations. Narrowing a float
  format is the identity at the ideal instance. So, when row 512*g + q of the stacked weights is row q of gate g's
  matrix and entry 512*g + q of the bias row is gate g's bias q, the two stored blocks are the specification's new
  cell state and new hidden state of the block's rows.
-/
import proofs.«137856_j24953759990253_1_alg».proof.Proof.Gen.KernelIdeal.Skeleton
import proofs.«137856_j24953759990253_1_alg».proof.Proof.LstmCell
import proofs.«137856_j24953759990253_1_alg».proof.Proof.CellLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.CellBody

open Cert.KernelIdeal Cert.KernelIdeal.Gen Cert.LstmCell
open Idealize.ShloMosaic Idealize.ShloMosaic.ValueIdx Idealize.ShloMosaic.Pipeline

/-! ## The product with both last axes contracted -/

theorem lhs_row (i : S512x2048.Idx) (q : dot_S512x1024_S2048x1024_S512x2048_1_1_0_0_n_n.contr.Idx) : (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl
theorem lhs_contr (i : S512x2048.Idx) (q : dot_S512x1024_S2048x1024_S512x2048_1_1_0_0_n_n.contr.Idx) : (dot_S512x1024_S2048x1024_S512x2048_1_1_0_0_n_n.lhsIdx i q 1).val = (q ⟨0, by decide⟩).val :=
  dot_S512x1024_S2048x1024_S512x2048_1_1_0_0_n_n.lhsIdx_val_of_single rfl i q
theorem rhs_row (i : S512x2048.Idx) (q : dot_S512x1024_S2048x1024_S512x2048_1_1_0_0_n_n.contr.Idx) : (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl
theorem rhs_contr (i : S512x2048.Idx) (q : dot_S512x1024_S2048x1024_S512x2048_1_1_0_0_n_n.contr.Idx) : (dot_S512x1024_S2048x1024_S512x2048_1_1_0_0_n_n.rhsIdx i q 1).val = (q ⟨0, by decide⟩).val :=
  dot_S512x1024_S2048x1024_S512x2048_1_1_0_0_n_n.rhsIdx_val_of_single rfl i q

/-- Into a zero accumulator, entry (p,j) of the product is the sum over k of l(p,k) * r(j,k). -/
theorem product_apply (l : FVec Ideal S512x1024 .bf16) (r : FVec Ideal S2048x1024 .bf16) (p : Fin 512) (j : Fin 2048) :
    matmul dot_S512x1024_S2048x1024_S512x2048_1_1_0_0_n_n none l r (constant (F := Ideal) S512x2048 .f32 0x00000000#32) (ix2 p j)
      = ∑ k : Fin 1024, l (ix2 p k) * r (ix2 j k) := by
  simp only [matmul]
  rw [Ideal.matmul_constant_zero_apply, ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 p j) ((contrEquiv1 dot_S512x1024_S2048x1024_S512x2048_1_1_0_0_n_n 1024 rfl rfl).symm k) = ix2 p k := funext fun a => Fin.ext (by
    match a with
    | ⟨0, _⟩ => exact lhs_row _ _
    | ⟨1, _⟩ => exact (lhs_contr _ _).trans hk)
  have er : dot_S512x1024_S2048x1024_S512x2048_1_1_0_0_n_n.rhsIdx (ix2 p j) ((contrEquiv1 dot_S512x1024_S2048x1024_S512x2048_1_1_0_0_n_n 1024 rfl rfl).symm k) = ix2 j k := funext fun a => Fin.ext (by
    match a with
    | ⟨0, _⟩ => exact rhs_row _ _
    | ⟨1, _⟩ => exact (rhs_contr _ _).trans hk)
  rw [el, er]

/-! ## The pre-activations of all four gates -/

/-- x and h blocks side by side at (p,k). -/
theorem joined_block (x h : Vec Ideal S512x512 .f32) (p : Fin 512) (k : Fin 1024) :
    concatenate S512x1024 1 [⟨S512x512, x⟩, ⟨S512x512, h⟩] concatenates_S512x512_S512x512_S512x1024_d1 (ix2 p k) = joined x h p k := by
  unfold joined
  by_cases hk : k.val < 512
  · rw [dif_pos hk]; exact Cert.CellLayout.side_left x h _ p k hk
  · rw [dif_neg hk]; exact Cert.CellLayout.side_right x h _ p k hk

/-- The bias row repeated down the 512 rows, at (p,j): the row's entry j. -/
theorem bias_rows (b : Vec Ideal S1x2048 .f32) (p : Fin 512) (j : Fin 2048) :
    broadcastTo S512x2048 (shapeCast S1x2048 b shapeCasts_S1x2048_S1x2048) broadcasts_S1x2048_S512x2048 (ix2 p j) = b (ix2 0 j) := by
  rw [shapeCast_self]
  exact broadcastTo_apply b broadcasts_S1x2048_S512x2048 (ix2 p j) (ix2 0 j) (fun a => match a with
    | ⟨0, _⟩ => by show (0 : Nat) = if (1 : Nat) = 1 then 0 else p.val; rw [if_pos rfl]
    | ⟨1, _⟩ => by show j.val = if (2048 : Nat) = 1 then 0 else j.val; rw [if_neg (by decide)])

/-- All four gates' pre-activations, before they are cut apart: entry (p,j). -/
theorem gates_apply (x h : Vec Ideal S512x512 .f32) (w : Vec Ideal S2048x1024 .bf16) (b : Vec Ideal S1x2048 .f32)
    (p : Fin 512) (j : Fin 2048) :
    k0_pay1 x h w b (ix2 p j) = (∑ k : Fin 1024, joined x h p k * w (ix2 j k)) + b (ix2 0 j) := by
  unfold k0_pay1
  rw [addf_apply, product_apply, bias_rows, shapeCast_self]
  refine congrArg (· + b (ix2 0 j)) (Finset.sum_congr rfl fun k _ => ?_)
  rw [truncf_apply, joined_block]

/-- Column band g of the [512,2048] array, at (p,q): the array at (p, 512*g + q). -/
theorem band_apply (v : FVec Ideal S512x2048 .f32) (off : Nat) (hs : S512x2048.Slices ![0, off] S512x512)
    (p q : Fin 512) (j : Fin 2048) (hj : off + q.val = j.val) :
    extractStridedSlice S512x512 ![0, off] v hs (ix2 p q) = v (ix2 p j) :=
  extractStridedSlice_apply ![0, off] v hs (ix2 p q) (ix2 p j) (fun a => match a with
    | ⟨0, _⟩ => by show p.val = 0 + p.val; omega
    | ⟨1, _⟩ => by show j.val = off + q.val; omega)

/-! ## The two stored blocks -/

section Stored
variable (x h c : Vec Ideal S512x512 .f32) (w : Vec Ideal S2048x1024 .bf16) (b : Vec Ideal S1x2048 .f32)
  (W : Fin 4 → Weights) (B : Fin 4 → Bias)
  (hw : ∀ (g : Fin 4) (q : Fin 512) (j : Fin 2048) (k : Fin 1024), 512 * g.val + q.val = j.val → w (ix2 j k) = W g (ix2 q k))
  (hb : ∀ (g : Fin 4) (q : Fin 512) (j : Fin 2048), 512 * g.val + q.val = j.val → b (ix2 0 j) = B g (ix1 q))

include hw hb in
/-- Gate g's pre-activation at (p,q), read off column 512*g + q. -/
theorem gate_pre (g : Fin 4) (p q : Fin 512) (j : Fin 2048) (hj : 512 * g.val + q.val = j.val) :
    k0_pay1 x h w b (ix2 p j) = pre x h (W g) (B g) p q := by
  rw [gates_apply]
  unfold pre
  rw [hb g q j hj]
  refine congrArg (· + B g (ix1 q)) (Finset.sum_congr rfl fun k _ => ?_)
  rw [hw g q j k hj]

include hw hb in
/-- The block stored as the new cell state. -/
theorem stored_newC (p q : Fin 512) :
    k0_pay2 x h w b c (ix2 p q) = newC x h c (W 0) (B 0) (W 1) (B 1) (W 2) (B 2) p q := by
  unfold k0_pay2
  show Ideal.tanh (Ideal.logistic (extractStridedSlice S512x512 ![0, 0] (k0_pay1 x h w b) _ (ix2 p q)) * c (ix2 p q)
    + Ideal.logistic (extractStridedSlice S512x512 ![0, 512] (k0_pay1 x h w b) _ (ix2 p q))
      * Ideal.tanh (extractStridedSlice S512x512 ![0, 1024] (k0_pay1 x h w b) _ (ix2 p q))) = _
  rw [band_apply _ 0 _ p q ⟨q.val, by have := q.isLt; omega⟩ (by simp),
    band_apply _ 512 _ p q ⟨512 + q.val, by have := q.isLt; omega⟩ rfl,
    band_apply _ 1024 _ p q ⟨1024 + q.val, by have := q.isLt; omega⟩ rfl,
    gate_pre x h w b W B hw hb 0 p q _ (by simp), gate_pre x h w b W B hw hb 1 p q _ (by simp),
    gate_pre x h w b W B hw hb 2 p q _ (by simp)]
  rfl

include hw hb in
/-- The block stored as the new hidden state. -/
theorem stored_newH (p q : Fin 512) :
    k0_pay3 x h w b c (ix2 p q) = newH x h c (W 0) (B 0) (W 1) (B 1) (W 2) (B 2) (W 3) (B 3) p q := by
  unfold k0_pay3
  show k0_pay2 x h w b c (ix2 p q) * Ideal.logistic (extractStridedSlice S512x512 ![0, 1536] (k0_pay1 x h w b) _ (ix2 p q)) = _
  rw [stored_newC x h c w b W B hw hb p q,
    band_apply _ 1536 _ p q ⟨1536 + q.val, by have := q.isLt; omega⟩ rfl,
    gate_pre x h w b W B hw hb 3 p q _ (by simp)]
  rfl

end Stored

end Cert.KernelIdeal.CellBody

end
-- ==== Proof.CellValue.lean ====
/-
  The two result arrays of the LSTM cell program after its run, at the ideal instance, as whole-array functions of
  the eleven argument arrays.

  Grid point t owns batch rows 512*t .. 512*t + 511: its blocks of x, h and c are those rows, the stacked weights and
  the bias row are whole at every point, and it writes back rows 512*t .. 512*t + 511 of both results. The stacked
  weights the region finds are the four gate matrices one over the other, the bias row the four bias vectors end to
  end. Every entry of a row of the specification depends on that row of x, h, c only, so what point t writes back is
  block t of the specification's arrays; the 32 blocks cover the 16384 rows.
-/
import proofs.«137856_j24953759990253_1_alg».proof.Proof.KernelIdealCell
import proofs.«137856_j24953759990253_1_alg».proof.Proof.CellBody
import Idealize.ShloMosaic.Lib.Pipeline.Value
import Idealize.ShloMosaic.Lib.StableHlo.Run

set_option maxRecDepth 16384

noncomputable section

namespace Cert.KernelIdeal.CellValue

open Cert.KernelIdeal Cert.KernelIdeal.Gen Cert.KernelIdeal.Cell Cert.KernelIdeal.CellBody Cert.LstmCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arguments, and the two arrays @main builds from them -/

/-- The four gates' weight matrices and bias vectors as launched, in the order they are stacked: forget, input,
    candidate, output. -/
def gateW (c : Dev nD) : Fin 4 → Weights := fun
  | ⟨0, _⟩ => m ((c : Thread nD τ).loc main_arg3) | ⟨1, _⟩ => m ((c : Thread nD τ).loc main_arg5) | ⟨2, _⟩ => m ((c : Thread nD τ).loc main_arg7) | ⟨3, _⟩ => m ((c : Thread nD τ).loc main_arg9)
  | ⟨_ + 4, h⟩ => absurd h (Nat.not_lt.2 (Nat.le_add_left _ _))
def gateB (c : Dev nD) : Fin 4 → Bias := fun
  | ⟨0, _⟩ => m ((c : Thread nD τ).loc main_arg4) | ⟨1, _⟩ => m ((c : Thread nD τ).loc main_arg6) | ⟨2, _⟩ => m ((c : Thread nD τ).loc main_arg8) | ⟨3, _⟩ => m ((c : Thread nD τ).loc main_arg10)
  | ⟨_ + 4, h⟩ => absurd h (Nat.not_lt.2 (Nat.le_add_left _ _))

/-- The region finds the stacked-weights array as the four matrices one over the other (narrowing the format is
    the identity here). -/
theorem entry_weights (c : Dev nD) : (V m c main_v1 : S2048x1024.Idx → EReal) =
    truncf (F := Ideal) .bf16 (concatenate S2048x1024 0 [⟨S512x1024, gateW m c 0⟩, ⟨S512x1024, gateW m c 1⟩,
      ⟨S512x1024, gateW m c 2⟩, ⟨S512x1024, gateW m c 3⟩] concatenates_S512x1024_S512x1024_S512x1024_S512x1024_S2048x1024_d0)
      bitsLt_bf16_f32 := by
  dsimp only [V, hostOps0]; after_results; rfl

/-- The region finds the bias row as the four bias vectors end to end, set as one row. -/
theorem entry_bias (c : Dev nD) : (V m c main_v3 : S1x2048.Idx → EReal) =
    shapeCast S1x2048 (concatenate S2048 0 [⟨S512, gateB m c 0⟩, ⟨S512, gateB m c 1⟩, ⟨S512, gateB m c 2⟩,
      ⟨S512, gateB m c 3⟩] concatenates_S512_S512_S512_S512_S2048_d0) shapeCasts_S2048_S1x2048 := by
  dsimp only [V, hostOps0]; after_results; rfl

/-! ## The windows' index maps over the grid -/

/-- Point t's block of x, h, c and of both results is block row t; the weights' and the bias row's block is the
    whole array at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks read at an index -/

/-- Point t's block of x at (p,n) is x as launched at row 512*t + p. -/
theorem block_x (c : Dev nD) (t : Fin cfg0.N) (p n : Fin 512) (a : Fin 16384) (ha : a.val = 512 * t.val + p.val) :
    iblk m c 0 t (ix2 p n) = m ((c : Thread nD τ).loc main_arg0) (ix2 a n) := by
  show V m c main_arg0 (((cfg0.win 0).blk t).view.emb (ix2 p n)) = _
  rw [V_main_arg0]
  refine congrArg _ (funext fun d => Fin.ext ?_)
  obtain ⟨e00, e01, e10, e11, e20, e21, -⟩ := idx_facts t
  match d with
  | ⟨0, _⟩ => show win0_0.index t (0 : Fin 2) * 512 + 1 * p.val = a.val; omega
  | ⟨1, _⟩ => show win0_0.index t (1 : Fin 2) * 512 + 1 * n.val = n.val; omega
/-- Point t's block of h at (p,n) is h as launched at row 512*t + p. -/
theorem block_h (c : Dev nD) (t : Fin cfg0.N) (p n : Fin 512) (a : Fin 16384) (ha : a.val = 512 * t.val + p.val) :
    iblk m c 1 t (ix2 p n) = m ((c : Thread nD τ).loc main_arg1) (ix2 a n) := by
  show V m c main_arg1 (((cfg0.win 1).blk t).view.emb (ix2 p n)) = _
  rw [V_main_arg1]
  refine congrArg _ (funext fun d => Fin.ext ?_)
  obtain ⟨e00, e01, e10, e11, e20, e21, -⟩ := idx_facts t
  match d with
  | ⟨0, _⟩ => show win0_1.index t (0 : Fin 2) * 512 + 1 * p.val = a.val; omega
  | ⟨1, _⟩ => show win0_1.index t (1 : Fin 2) * 512 + 1 * n.val = n.val; omega
/-- Point t's block of c at (p,n) is c as launched at row 512*t + p. -/
theorem block_c (c : Dev nD) (t : Fin cfg0.N) (p n : Fin 512) (a : Fin 16384) (ha : a.val = 512 * t.val + p.val) :
    iblk m c 2 t (ix2 p n) = m ((c : Thread nD τ).loc main_arg2) (ix2 a n) := by
  show V m c main_arg2 (((cfg0.win 2).blk t).view.emb (ix2 p n)) = _
  rw [V_main_arg2]
  refine congrArg _ (funext fun d => Fin.ext ?_)
  obtain ⟨e00, e01, e10, e11, e20, e21, -⟩ := idx_facts t
  match d with
  | ⟨0, _⟩ => show win0_2.index t (0 : Fin 2) * 512 + 1 * p.val = a.val; omega
  | ⟨1, _⟩ => show win0_2.index t (1 : Fin 2) * 512 + 1 * n.val = n.val; omega

/-- The weights' block at any point, at row 512*g + q: row q of gate g's matrix. -/
theorem block_weights (c : Dev nD) (t : Fin cfg0.N) (g : Fin 4) (q : Fin 512) (j : Fin 2048) (k : Fin 1024)
    (hj : 512 * g.val + q.val = j.val) : iblk m c 3 t (ix2 j k) = gateW m c g (ix2 q k) := by
  have e : iblk m c 3 t (ix2 j k) = V m c main_v1 (ix2 j k) := by
    show V m c main_v1 (((cfg0.win 3).blk t).view.emb (ix2 j k)) = _
    refine congrArg _ (funext fun d => Fin.ext ?_)
    obtain ⟨-, -, -, -, -, -, e30, e31, -⟩ := idx_facts t
    match d with
    | ⟨0, _⟩ => show win0_3.index t (0 : Fin 2) * 2048 + 1 * j.val = j.val; omega
    | ⟨1, _⟩ => show win0_3.index t (1 : Fin 2) * 1024 + 1 * k.val = k.val; omega
  rw [e, entry_weights, truncf_apply]
  exact Cert.CellLayout.stacked_rows (gateW m c) _ g q j k hj

/-- The bias row's block at any point, at column 512*g + q: entry q of gate g's bias. -/
theorem block_bias (c : Dev nD) (t : Fin cfg0.N) (g : Fin 4) (q : Fin 512) (j : Fin 2048)
    (hj : 512 * g.val + q.val = j.val) : iblk m c 4 t (ix2 0 j) = gateB m c g (ix1 q) := by
  have e : iblk m c 4 t (ix2 0 j) = V m c main_v3 (ix2 0 j) := by
    show V m c main_v3 (((cfg0.win 4).blk t).view.emb (ix2 0 j)) = _
    refine congrArg _ (funext fun d => Fin.ext ?_)
    obtain ⟨-, -, -, -, -, -, -, -, e40, e41, -⟩ := idx_facts t
    match d with
    | ⟨0, _⟩ => show win0_4.index t (0 : Fin 2) * 1 + 1 * 0 = 0; omega
    | ⟨1, _⟩ => show win0_4.index t (1 : Fin 2) * 2048 + 1 * j.val = j.val; omega
  rw [e, entry_bias]
  refine (shapeCast_apply _ shapeCasts_S2048_S1x2048 (ix2 0 j) (ix1 j) ?_).trans
    (Cert.CellLayout.stacked_bias (gateB m c) _ g q j hj)
  rw [Shape.rowMajor_val_one, Shape.rowMajor_val_two]
  show j.val = 0 * 2048 + j.val
  omega

/-! ## The results as whole arrays -/

/-- The new hidden state and the new cell state of the whole batch, from the arguments as launched. -/
def resultH (c : Dev nD) : Rows 16384 :=
  newHArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
def resultC (c : Dev nD) : Rows 16384 :=
  newCArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem hz : (![0, 0] : Fin 2 → Nat) = fun _ => 0 := funext fun a => by fin_cases a <;> rfl

/-- The array index of entry (p,q) of point t's result block: row 512*t + p, column q. -/
theorem emb_H (t : Fin cfg0.N) (p q : Fin 512) (a : Fin 16384) (ha : a.val = 512 * t.val + p.val) :
    ((cfg0.win 5).blk t).view.emb (ix2 p q) = ix2 a q := by
  refine funext fun d => Fin.ext ?_
  obtain ⟨-, -, -, -, -, -, -, -, -, -, e50, e51, -⟩ := idx_facts t
  match d with
  | ⟨0, _⟩ => show win0_5.index t (0 : Fin 2) * 512 + 1 * p.val = a.val; omega
  | ⟨1, _⟩ => show win0_5.index t (1 : Fin 2) * 512 + 1 * q.val = q.val; omega
theorem emb_C (t : Fin cfg0.N) (p q : Fin 512) (a : Fin 16384) (ha : a.val = 512 * t.val + p.val) :
    ((cfg0.win 6).blk t).view.emb (ix2 p q) = ix2 a q := by
  refine funext fun d => Fin.ext ?_
  obtain ⟨-, -, -, -, -, -, -, -, -, -, -, -, e60, e61⟩ := idx_facts t
  match d with
  | ⟨0, _⟩ => show win0_6.index t (0 : Fin 2) * 512 + 1 * p.val = a.val; omega
  | ⟨1, _⟩ => show win0_6.index t (1 : Fin 2) * 512 + 1 * q.val = q.val; omega

/-- A row of the grid: point t, row p of its block. -/
theorem row_lt (t : Fin cfg0.N) (p : Fin 512) : 512 * t.val + p.val < 16384 := by
  have ht : t.val < 32 := Nat.lt_of_lt_of_eq t.isLt (N_0 : cfg0.N = 32)
  have := p.isLt; omega

/-- What point t writes back to the new hidden state is block t of `resultH`. -/
theorem wroteH (c : Dev nD) (t : Fin cfg0.N) :
    (dats m 0 c).flushed 5 t = ((cfg0.win 5).blk t).view.read (Elt Ideal) (resultH m c) := by
  show (cfg0.win 5).cut (grid0.coords t) ((dats m 0 c).after 5 t) = _
  rw [after_outH]
  unfold outH
  rw [View.canon_unit_zero hz]
  simp only [View.ld_unit_zero (S := S512x512) hz, View.ld_unit_zero (S := S2048x1024) hz, View.ld_unit_zero (S := S1x2048) hz]
  funext y
  obtain ⟨p, q, rfl⟩ : ∃ (p q : Fin 512), y = ix2 p q := ⟨y 0, y 1, eq_ix2 y⟩
  show k0_pay3 (iblk m c 0 t) (iblk m c 1 t) (iblk m c 3 t) (iblk m c 4 t) (iblk m c 2 t) (ix2 p q)
    = resultH m c (((cfg0.win 5).blk t).view.emb (ix2 p q))
  rw [emb_H t p q ⟨512 * t.val + p.val, row_lt t p⟩ rfl]
  refine (stored_newH (iblk m c 0 t) (iblk m c 1 t) (iblk m c 2 t) (iblk m c 3 t) (iblk m c 4 t) (gateW m c) (gateB m c)
    (fun g q' j k hj => block_weights m c t g q' j k hj) (fun g q' j hj => block_bias m c t g q' j hj) p q).trans ?_
  exact newH_row (fun n => block_x m c t p n _ rfl) (fun n => block_h m c t p n _ rfl) (fun n => block_c m c t p n _ rfl)
    (gateW m c 0) (gateB m c 0) (gateW m c 1) (gateB m c 1) (gateW m c 2) (gateB m c 2) (gateW m c 3) (gateB m c 3) q

/-- What point t writes back to the new cell state is block t of `resultC`. -/
theorem wroteC (c : Dev nD) (t : Fin cfg0.N) :
    (dats m 0 c).flushed 6 t = ((cfg0.win 6).blk t).view.read (Elt Ideal) (resultC m c) := by
  show (cfg0.win 6).cut (grid0.coords t) ((dats m 0 c).after 6 t) = _
  rw [after_outC]
  unfold outC
  rw [View.canon_unit_zero hz]
  simp only [View.ld_unit_zero (S := S512x512) hz, View.ld_unit_zero (S := S2048x1024) hz, View.ld_unit_zero (S := S1x2048) hz]
  funext y
  obtain ⟨p, q, rfl⟩ : ∃ (p q : Fin 512), y = ix2 p q := ⟨y 0, y 1, eq_ix2 y⟩
  show k0_pay2 (iblk m c 0 t) (iblk m c 1 t) (iblk m c 3 t) (iblk m c 4 t) (iblk m c 2 t) (ix2 p q)
    = resultC m c (((cfg0.win 6).blk t).view.emb (ix2 p q))
  rw [emb_C t p q ⟨512 * t.val + p.val, row_lt t p⟩ rfl]
  refine (stored_newC (iblk m c 0 t) (iblk m c 1 t) (iblk m c 2 t) (iblk m c 3 t) (iblk m c 4 t) (gateW m c) (gateB m c)
    (fun g q' j k hj => block_weights m c t g q' j k hj) (fun g q' j hj => block_bias m c t g q' j hj) p q).trans ?_
  exact newC_row (fun n => block_x m c t p n _ rfl) (fun n => block_h m c t p n _ rfl) (fun n => block_c m c t p n _ rfl)
    (gateW m c 0) (gateB m c 0) (gateW m c 1) (gateB m c 1) (gateW m c 2) (gateB m c 2) q

/-! ## The blocks cover the arrays -/

theorem mem_blockH (t : Fin cfg0.N) (i : S16384x512.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v4_0).slice (win0_5.rect t)).set ↔ _
  rw [View.set_slice_whole, Rect.mem_set_unit]
  exact Iff.rfl
theorem mem_blockC (t : Fin cfg0.N) (i : S16384x512.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v4_1).slice (win0_6.rect t)).set ↔ _
  rw [View.set_slice_whole, Rect.mem_set_unit]
  exact Iff.rfl

/-- Row r lies in the block of point r / 512. -/
theorem pointOf (i : S16384x512.Idx) : (i 0).val / 512 < cfg0.N := by
  have hi0 : (i 0).val < 16384 := idx2_lt0 i
  rw [show cfg0.N = 32 from N_0]; omega

theorem coveredH (i : S16384x512.Idx) :
    ∃ t : Fin cfg0.N, (cfg0.win 5).flush t = true ∧ i ∈ ((cfg0.win 5).blk t).view.set := by
  have hi1 : (i 1).val < 512 := idx2_lt1 i
  refine ⟨⟨(i 0).val / 512, pointOf i⟩, flush0_5 _, ?_⟩
  rw [mem_blockH]
  obtain ⟨-, -, -, -, -, -, -, -, -, -, e50, e51, -⟩ := idx_facts ⟨(i 0).val / 512, pointOf i⟩
  intro a
  match a with
  | ⟨0, _⟩ =>
    show win0_5.index ⟨(i 0).val / 512, pointOf i⟩ (0 : Fin 2) * 512 ≤ (i 0).val
      ∧ (i 0).val < win0_5.index ⟨(i 0).val / 512, pointOf i⟩ (0 : Fin 2) * 512 + 512
    rw [e50]; show (i 0).val / 512 * 512 ≤ (i 0).val ∧ (i 0).val < (i 0).val / 512 * 512 + 512; omega
  | ⟨1, _⟩ =>
    show win0_5.index ⟨(i 0).val / 512, pointOf i⟩ (1 : Fin 2) * 512 ≤ (i 1).val
      ∧ (i 1).val < win0_5.index ⟨(i 0).val / 512, pointOf i⟩ (1 : Fin 2) * 512 + 512
    rw [e51]; omega

theorem coveredC (i : S16384x512.Idx) :
    ∃ t : Fin cfg0.N, (cfg0.win 6).flush t = true ∧ i ∈ ((cfg0.win 6).blk t).view.set := by
  have hi1 : (i 1).val < 512 := idx2_lt1 i
  refine ⟨⟨(i 0).val / 512, pointOf i⟩, flush0_6 _, ?_⟩
  rw [mem_blockC]
  obtain ⟨-, -, -, -, -, -, -, -, -, -, -, -, e60, e61⟩ := idx_facts ⟨(i 0).val / 512, pointOf i⟩
  intro a
  match a with
  | ⟨0, _⟩ =>
    show win0_6.index ⟨(i 0).val / 512, pointOf i⟩ (0 : Fin 2) * 512 ≤ (i 0).val
      ∧ (i 0).val < win0_6.index ⟨(i 0).val / 512, pointOf i⟩ (0 : Fin 2) * 512 + 512
    rw [e60]; show (i 0).val / 512 * 512 ≤ (i 0).val ∧ (i 0).val < (i 0).val / 512 * 512 + 512; omega
  | ⟨1, _⟩ =>
    show win0_6.index ⟨(i 0).val / 512, pointOf i⟩ (1 : Fin 2) * 512 ≤ (i 1).val
      ∧ (i 1).val < win0_6.index ⟨(i 0).val / 512, pointOf i⟩ (1 : Fin 2) * 512 + 512
    rw [e61]; omega

/-- After the run the two result arrays are the specification's. -/
theorem finalH (c : Dev nD) : (dats m 0 c).arrAt 5 cfg0.N = resultH m c :=
  (dats m 0 c).arrAt_eq_of_cover 5 (resultH m c) (fun t _ => wroteH m c t) coveredH
theorem finalC (c : Dev nD) : (dats m 0 c).arrAt 6 cfg0.N = resultC m c :=
  (dats m 0 c).arrAt_eq_of_cover 6 (resultC m c) (fun t _ => wroteC m c t) coveredC

/-! ## The run, read -/

/-- Every weakly fair execution of the program terminates with the two results at the specification's arrays of
    the arguments as launched, and the arguments unchanged. -/
theorem run : θ_run defs (onTc (τ := τ) (main (F := Ideal))) ⟨m, fun _ => 0, ρ⟩ fun r => ∀ c : Dev nD,
      r.2.mem ((c.tc : Thread nD τ).loc main_v4_0) = resultH m c
      ∧ r.2.mem ((c.tc : Thread nD τ).loc main_v4_1) = resultC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    ⟨((h c).1 5).trans (finalH m c), ((h c).1 6).trans (finalC m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c),
     ((h c).2 main_arg7 (Pipeline.mem_restRefs_of main_arg7 (by decide) (by decide))).trans (V_main_arg7 m c),
     ((h c).2 main_arg8 (Pipeline.mem_restRefs_of main_arg8 (by decide) (by decide))).trans (V_main_arg8 m c),
     ((h c).2 main_arg9 (Pipeline.mem_restRefs_of main_arg9 (by decide) (by decide))).trans (V_main_arg9 m c),
     ((h c).2 main_arg10 (Pipeline.mem_restRefs_of main_arg10 (by decide) (by decide))).trans (V_main_arg10 m c)⟩)
    (run_main m ρ)

end Cert.KernelIdeal.CellValue

end
-- ==== Proof.RefCell.lean ====
/-
  The reference program of the LSTM cell, read entry by entry, is the specification.

  The reference joins x and h side by side into rows of 1024 entries, and for each of the four gates transposes the
  gate's weight matrix W [512,1024], contracts the joined rows with it and adds the bias b broadcast along the rows:
  at row a, unit q that is

      (sum over k < 1024 of [x|h](a,k) * W(q,k)) + b(q) = pre(a,q),

  because entry (k,q) of the transpose is W(q,k) and entry (a,q) of the broadcast bias is b(q). The three sigmoid
  gates are spelled 1 / (1 + e^(-pre)) with the constant 1 broadcast to every entry, which is the logistic function
  of pre on every extended real. The four gates are the same term in a weight matrix and a bias, so one reading of a
  pre-activation and one of a sigmoid serve all four. The rest is pointwise:

      new_c = tanh(s(pre_f) * c + s(pre_i) * tanh(pre_g)),   new_h = new_c * s(pre_o).
-/
import proofs.«137856_j24953759990253_1_alg».proof.Proof.Gen.ReferenceIdeal.Read
import proofs.«137856_j24953759990253_1_alg».proof.Proof.LstmCell
import proofs.«137856_j24953759990253_1_alg».proof.Proof.CellLayout

noncomputable section

namespace Cert.ReferenceIdeal.CellValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.LstmCell

/-- The joined array at (a,k) is x's entry for k < 512 and h's entry at k - 512 from there on. -/
theorem joined_ref (x0 x1 : (⟨S16384x512, .f32⟩ : BufTy).Contents (Elt Ideal)) (a : Fin 16384) (k : Fin 1024) :
    val_main_v0 (F := Ideal) x0 x1 (ix2 a k) = joined x0 x1 a k := by
  unfold joined val_main_v0
  by_cases hk : k.val < 512
  · rw [dif_pos hk]
    exact Cert.CellLayout.side_left x0 x1 concatenates_S16384x512_S16384x512_S16384x1024_d1 a k hk
  · rw [dif_neg hk]
    exact Cert.CellLayout.side_right x0 x1 concatenates_S16384x512_S16384x512_S16384x1024_d1 a k hk

/-- A gate's pre-activation in the reference: the joined row a contracted with row q of W, plus b(q). -/
theorem pre_ref (x0 x1 : (⟨S16384x512, .f32⟩ : BufTy).Contents (Elt Ideal))
    (W : (⟨S512x1024, .f32⟩ : BufTy).Contents (Elt Ideal)) (b : (⟨S512, .f32⟩ : BufTy).Contents (Elt Ideal))
    (a : Fin 16384) (q : Fin 512) :
    val_main_v11 (F := Ideal) x0 x1 W b (ix2 a q) = pre x0 x1 W b a q := by
  have eb : idx_main_v9 (idx_main_v10 (ix2 a q)) = ix1 q := funext fun d => Fin.ext (by match d with | ⟨0, _⟩ => rfl)
  rw [val_main_v11_apply, val_main_v8_apply, val_main_v10_apply, val_main_v9_apply, eb, Ideal.addf_def]
  unfold pre
  congr 1
  refine Finset.sum_congr rfl fun k _ => ?_
  have el : lidx_main_v8 (ix2 a q) k = ix2 a k :=
    funext fun d => Fin.ext (by match d with | ⟨0, _⟩ => rfl | ⟨1, _⟩ => rfl)
  have er : idx_main_v7 (ridx_main_v8 (ix2 a q) k) = ix2 q k :=
    funext fun d => Fin.ext (by match d with | ⟨0, _⟩ => rfl | ⟨1, _⟩ => rfl)
  rw [val_main_v7_apply, el, er, joined_ref]

/-- A sigmoid gate in the reference, 1 / (1 + e^(-pre)) with both ones the broadcast constant, is the logistic
    function of the pre-activation. -/
theorem sig_ref (x0 x1 : (⟨S16384x512, .f32⟩ : BufTy).Contents (Elt Ideal))
    (W : (⟨S512x1024, .f32⟩ : BufTy).Contents (Elt Ideal)) (b : (⟨S512, .f32⟩ : BufTy).Contents (Elt Ideal))
    (i : S16384x512.Idx) :
    val_main_v17 (F := Ideal) x0 x1 W b i = Ideal.logistic (val_main_v11 (F := Ideal) x0 x1 W b i) := by
  rw [val_main_v17_apply, val_main_v16_apply, val_main_cst_0_apply, val_main_v15_apply, val_main_v14_apply,
    val_main_cst_apply, val_main_v13_apply, val_main_v12_apply, Ideal.ofBits_def, one_word]
  exact logistic_quotient _

/-! The other three gates are the forget gate's terms in their own weight matrix and bias. -/

theorem pre_i_eq (x0 x1 : (⟨S16384x512, .f32⟩ : BufTy).Contents (Elt Ideal))
    (W : (⟨S512x1024, .f32⟩ : BufTy).Contents (Elt Ideal)) (b : (⟨S512, .f32⟩ : BufTy).Contents (Elt Ideal)) :
    val_main_v22 (F := Ideal) x0 x1 W b = val_main_v11 (F := Ideal) x0 x1 W b := rfl

theorem pre_g_eq (x0 x1 : (⟨S16384x512, .f32⟩ : BufTy).Contents (Elt Ideal))
    (W : (⟨S512x1024, .f32⟩ : BufTy).Contents (Elt Ideal)) (b : (⟨S512, .f32⟩ : BufTy).Contents (Elt Ideal)) :
    val_main_v5 (F := Ideal) x0 x1 W b = val_main_v11 (F := Ideal) x0 x1 W b := rfl

theorem sig_i_eq (x0 x1 : (⟨S16384x512, .f32⟩ : BufTy).Contents (Elt Ideal))
    (W : (⟨S512x1024, .f32⟩ : BufTy).Contents (Elt Ideal)) (b : (⟨S512, .f32⟩ : BufTy).Contents (Elt Ideal)) :
    val_main_v28 (F := Ideal) x0 x1 W b = val_main_v17 (F := Ideal) x0 x1 W b := rfl

theorem sig_o_eq (x0 x1 : (⟨S16384x512, .f32⟩ : BufTy).Contents (Elt Ideal))
    (W : (⟨S512x1024, .f32⟩ : BufTy).Contents (Elt Ideal)) (b : (⟨S512, .f32⟩ : BufTy).Contents (Elt Ideal)) :
    val_main_v39 (F := Ideal) x0 x1 W b = val_main_v17 (F := Ideal) x0 x1 W b := rfl

/-- The reference's new cell state at (a,q). -/
theorem ref_newC_at (x0 x1 x2 : (⟨S16384x512, .f32⟩ : BufTy).Contents (Elt Ideal))
    (x3 : (⟨S512x1024, .f32⟩ : BufTy).Contents (Elt Ideal)) (x4 : (⟨S512, .f32⟩ : BufTy).Contents (Elt Ideal))
    (x5 : (⟨S512x1024, .f32⟩ : BufTy).Contents (Elt Ideal)) (x6 : (⟨S512, .f32⟩ : BufTy).Contents (Elt Ideal))
    (x7 : (⟨S512x1024, .f32⟩ : BufTy).Contents (Elt Ideal)) (x8 : (⟨S512, .f32⟩ : BufTy).Contents (Elt Ideal))
    (a : Fin 16384) (q : Fin 512) :
    val_main_v43 (F := Ideal) x0 x1 x2 x3 x4 x5 x6 x7 x8 (ix2 a q) = newC x0 x1 x2 x3 x4 x5 x6 x7 x8 a q := by
  rw [val_main_v43_apply, val_main_v42_apply, val_main_v40_apply, val_main_v41_apply, val_main_v6_apply,
    sig_i_eq, pre_g_eq, sig_ref, sig_ref, pre_ref, pre_ref, pre_ref,
    Ideal.hostUnary_tanh_def, Ideal.hostUnary_tanh_def, Ideal.addf_def, Ideal.mulf_def, Ideal.mulf_def]
  rfl

/-- The reference's new cell state is the specification's, entry by entry. -/
theorem ref_newC (x0 x1 x2 : (⟨S16384x512, .f32⟩ : BufTy).Contents (Elt Ideal))
    (x3 : (⟨S512x1024, .f32⟩ : BufTy).Contents (Elt Ideal)) (x4 : (⟨S512, .f32⟩ : BufTy).Contents (Elt Ideal))
    (x5 : (⟨S512x1024, .f32⟩ : BufTy).Contents (Elt Ideal)) (x6 : (⟨S512, .f32⟩ : BufTy).Contents (Elt Ideal))
    (x7 : (⟨S512x1024, .f32⟩ : BufTy).Contents (Elt Ideal)) (x8 : (⟨S512, .f32⟩ : BufTy).Contents (Elt Ideal)) :
    Cert.ReferenceIdeal.Read.val_main_v43 (F := Ideal) x0 x1 x2 x3 x4 x5 x6 x7 x8
      = Cert.LstmCell.newCArr x0 x1 x2 x3 x4 x5 x6 x7 x8 := by
  funext i
  obtain ⟨a, q, rfl⟩ : ∃ (a : Fin 16384) (q : Fin 512), i = ix2 a q := ⟨i 0, i 1, eq_ix2 i⟩
  exact ref_newC_at x0 x1 x2 x3 x4 x5 x6 x7 x8 a q

/-- The reference's new hidden state is the specification's, entry by entry. -/
theorem ref_newH (x0 x1 x2 : (⟨S16384x512, .f32⟩ : BufTy).Contents (Elt Ideal))
    (x3 : (⟨S512x1024, .f32⟩ : BufTy).Contents (Elt Ideal)) (x4 : (⟨S512, .f32⟩ : BufTy).Contents (Elt Ideal))
    (x5 : (⟨S512x1024, .f32⟩ : BufTy).Contents (Elt Ideal)) (x6 : (⟨S512, .f32⟩ : BufTy).Contents (Elt Ideal))
    (x7 : (⟨S512x1024, .f32⟩ : BufTy).Contents (Elt Ideal)) (x8 : (⟨S512, .f32⟩ : BufTy).Contents (Elt Ideal))
    (x9 : (⟨S512x1024, .f32⟩ : BufTy).Contents (Elt Ideal)) (x10 : (⟨S512, .f32⟩ : BufTy).Contents (Elt Ideal)) :
    Cert.ReferenceIdeal.Read.val_main_v44 (F := Ideal) x0 x1 x2 x3 x4 x5 x6 x7 x8 x9 x10
      = Cert.LstmCell.newHArr x0 x1 x2 x3 x4 x5 x6 x7 x8 x9 x10 := by
  funext i
  obtain ⟨a, q, rfl⟩ : ∃ (a : Fin 16384) (q : Fin 512), i = ix2 a q := ⟨i 0, i 1, eq_ix2 i⟩
  rw [val_main_v44_apply, ref_newC_at, sig_o_eq, sig_ref, pre_ref, Ideal.mulf_def]
  rfl

end Cert.ReferenceIdeal.CellValue

end
-- ==== Proof.lean ====
/-
  An LSTM cell step, one Pallas kernel against its jnp reference, over the extended reals.

  Both programs compute, for every batch row a and unit q, with [x|h] the rows of x and h side by side and s the
  logistic function,

      pre_g(a,q) = (sum over k < 1024 of [x|h](a,k) * W_g(q,k)) + b_g(q)      for the four gates g,
      new_c = tanh(s(pre_f) * c + s(pre_i) * tanh(pre_cand)),      new_h = new_c * s(pre_o).

  The kernel stacks the four weight matrices and biases, runs 32 grid points of 512 rows each, forms all four
  pre-activations in one product contracted over both last axes and cuts them apart by column band; the reference
  forms four separate products with transposed weights and spells the logistic function as 1 / (1 + e^(-z)), which is
  the same function on every extended real. No rearrangement of a sum or product is involved, so the precondition
  (finite inputs) is never opened. The frames: each program terminates without a fault and leaves its eleven
  arguments unchanged — for the kernel (at the word level and idealized) because no host operation and no window
  writes an argument, for the reference from its run. The idealization rewrote nothing, so it preserves trivially.
-/
import proofs.«137856_j24953759990253_1_alg».proof.Defs
import proofs.«137856_j24953759990253_1_alg».proof.Proof.Gen.Kernel
import proofs.«137856_j24953759990253_1_alg».proof.Proof.Gen.Kernel.Skeleton
import proofs.«137856_j24953759990253_1_alg».proof.Proof.Gen.Kernel.Launch
import proofs.«137856_j24953759990253_1_alg».proof.Proof.Gen.Kernel.Points
import proofs.«137856_j24953759990253_1_alg».proof.Proof.Gen.KernelIdeal
import proofs.«137856_j24953759990253_1_alg».proof.Proof.Gen.KernelIdeal.Skeleton
import proofs.«137856_j24953759990253_1_alg».proof.Proof.Gen.KernelIdeal.Launch
import proofs.«137856_j24953759990253_1_alg».proof.Proof.Gen.KernelIdeal.Points
import proofs.«137856_j24953759990253_1_alg».proof.Proof.Gen.ReferenceIdeal
import proofs.«137856_j24953759990253_1_alg».proof.Proof.Gen.Pre_finite_inputs
import proofs.«137856_j24953759990253_1_alg».proof.Proof.Gen.ReferenceIdeal.Run
import proofs.«137856_j24953759990253_1_alg».proof.Proof.Gen.ReferenceIdeal.Read
import proofs.«137856_j24953759990253_1_alg».proof.Proof.KernelCell
import proofs.«137856_j24953759990253_1_alg».proof.Proof.KernelIdealCell
import proofs.«137856_j24953759990253_1_alg».proof.Proof.CellValue
import proofs.«137856_j24953759990253_1_alg».proof.Proof.RefCell
import Idealize.ShloMosaic.Adequacy
import Idealize.ShloMosaic.Init

noncomputable section

namespace Cert.Proof

open Idealize.ShloMosaic Idealize.ShloMosaic.TcCoe Idealize.SL.Sem

/-- The kernel program as printed runs to the end and leaves its arguments unchanged. -/
theorem frame_kernel : Cert.frame_Kernel := fun m ρ _ => Cert.Kernel.Cell.frame m ρ

/-- So does its idealization. -/
theorem frame_kernelIdeal : Cert.frame_KernelIdeal := fun m ρ _ => Cert.KernelIdeal.Cell.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments, both programs end with the specification's new hidden state and new
    cell state of those arguments. -/
theorem algebraic : Cert.algebraic_KernelIdeal_ReferenceIdeal := by
  intro m ρ m' ρ' _ hagree
  refine ⟨fun c => Cert.KernelIdeal.CellValue.resultH m c, fun c => Cert.KernelIdeal.CellValue.resultC m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v44_eq, Cert.ReferenceIdeal.CellValue.ref_newH,
      a0, a1, a2, a3, a4, a5, a6, a7, a8, a9, a10]
    rfl
  · obtain ⟨a0, a1, a2, a3, a4, a5, a6, a7, a8, -⟩ := hagree c
    rw [Cert.ReferenceIdeal.Read.val_main_v43_eq, Cert.ReferenceIdeal.CellValue.ref_newC,
      a0, a1, a2, a3, a4, a5, a6, a7, a8]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
